-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x4096x256 .f32) (main_arg1 : FVec F S4x4096x256 .f32) (main_arg2 : FVec F S4x4096x256 .f32) (main_arg3 : FVec F S256x256 .f32) (main_arg4 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x256 : Shape := ⟨2, ![1, 256]⟩
abbrev S1x256x256 : Shape := ⟨3, ![1, 256, 256]⟩
abbrev S1x4096x256 : Shape := ⟨3, ![1, 4096, 256]⟩
abbrev S4096x256 : Shape := ⟨2, ![4096, 256]⟩
abbrev S256x4096 : Shape := ⟨2, ![256, 4096]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S1x256, .f32⟩
  | .hbm, ⟨7, _⟩ => ⟨S4x4096x256, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S256x256, .f32⟩
  | .local _ .vmem, ⟨7, _⟩ => ⟨S1x256, .f32⟩
  | .local _ .vmem, ⟨8, _⟩ => ⟨S1x256x256, .f32⟩
  | .local _ .vmem, ⟨9, _⟩ => ⟨S1x256x256, .f32⟩
  | .local _ .vmem, ⟨10, _⟩ => ⟨S4096x256, .bf16⟩
  | .local _ .vmem, ⟨11, _⟩ => ⟨S4096x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x256_S256x256_1_0 : S256x256.Transposes [1, 0] S256x256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1x256_S256x256 : S1x256.Broadcasts S256x256
  transposes_S4096x256_p1_0_S256x4096 : S4096x256.Transposes [1, 0] S256x4096
  reduces_S256x4096_S256 : S256x4096.Reduces [1] S256
  shapeCasts_S256_S256x1 : S256.ShapeCasts S256x1
  broadcasts_S256x1_S256x4096 : S256x1.Broadcasts S256x4096
  shapeCasts_S256x256_S1x256x256 : S256x256.ShapeCasts S1x256x256
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x4096x256.size a
  hwx0_0 : ∀ i : grid0.Coords, EltTy.bits .f32 = 32 ∨ (Rect.block (s := S4x4096x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .f32 = 32 ∨ (Rect.block (s := S4x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x4096x256.size a
  hwx0_2 : ∀ i : grid0.Coords, EltTy.bits .f32 = 32 ∨ (Rect.block (s := S4x4096x256) S1x4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S4x4096x256.size a
  hwx0_5 : ∀ i : grid0.Coords, EltTy.bits .f32 = 32 ∨ (Rect.block (s := S4x4096x256) S1x256x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x256, .f32⟩
  | .hbm, ⟨4, _⟩ => ⟨S256, .f32⟩
  | .hbm, ⟨5, _⟩ => ⟨S4x4096x256, .f32⟩
  | .hbm, ⟨6, _⟩ => ⟨S1x1x256, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Pieces.lean ====
/-
  What one run of the kernel body leaves behind, as pure functions of what it read.
  At the first query tile of a batch the body projects that batch's keys and values through the shared
  weight and bias and stores the two projections whole in the two scratch buffers; the attention output it
  then stores is computed from the two projections it has just written. At every other tile it stores nothing
  in the scratch buffers and computes the attention output from what they already hold.
-/
import proofs.«173632_j6365141532793_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the first scratch buffer ends holding the projection of the key block. -/
theorem kscr_first (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S4096x256 .bf16) (harg8 : arg8.IsWhole) (arg9 : Memref sig .tc .vmem S4096x256 .bf16) (harg9 : arg9.IsWhole) (hc0 : cond0_0 i)
    (x0 : Vec F S1x256x256 .f32) (x1 : Vec F S1x4096x256 .f32) (x2 : Vec F S1x4096x256 .f32) (x3 : Vec F S256x256 .f32) (x4 : Vec F S1x256 .f32) :
    sout0_A_0 c i arg2 harg2 arg3 harg3 arg4 harg4 arg5 harg5 arg6 harg6 arg7 harg7 arg8 harg8 arg9 harg9 hc0 x0 x1 x2 x3 x4 = k0_pay3 x3 x4 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg5.read_unread, harg6.read_unread,
    View.ld_unit_zero (S := S256x256) hz2, View.ld_unit_zero (S := S1x256) hz2, View.ld_unit_zero (S := S1x4096x256) hz3]

/-- First tile of a batch: the second scratch buffer ends holding the projection of the value block. -/
theorem vscr_first (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S4096x256 .bf16) (harg8 : arg8.IsWhole) (arg9 : Memref sig .tc .vmem S4096x256 .bf16) (harg9 : arg9.IsWhole) (hc0 : cond0_0 i)
    (x0 : Vec F S1x256x256 .f32) (x1 : Vec F S1x4096x256 .f32) (x2 : Vec F S1x4096x256 .f32) (x3 : Vec F S256x256 .f32) (x4 : Vec F S1x256 .f32) :
    sout0_A_1 c i arg2 harg2 arg3 harg3 arg4 harg4 arg5 harg5 arg6 harg6 arg7 harg7 arg8 harg8 arg9 harg9 hc0 x0 x1 x2 x3 x4 = k0_pay4 x3 x4 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg4.read_unread, harg5.read_unread, harg6.read_unread,
    View.ld_unit_zero (S := S256x256) hz2, View.ld_unit_zero (S := S1x256) hz2, View.ld_unit_zero (S := S1x4096x256) hz3]

/-- First tile of a batch: the output block is the attention of the query block over the two projections just stored. -/
theorem out_first (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S4096x256 .bf16) (harg8 : arg8.IsWhole) (arg9 : Memref sig .tc .vmem S4096x256 .bf16) (harg9 : arg9.IsWhole) (hc0 : cond0_0 i)
    (x0 : Vec F S1x256x256 .f32) (x1 : Vec F S1x4096x256 .f32) (x2 : Vec F S1x4096x256 .f32) (x3 : Vec F S256x256 .f32) (x4 : Vec F S1x256 .f32) :
    out0_A_5 c i arg2 harg2 arg3 harg3 arg4 harg4 arg5 harg5 arg6 harg6 arg7 harg7 arg8 harg8 arg9 harg9 hc0 x0 x1 x2 x3 x4 = k0_pay5 x3 x4 x0 (k0_pay3 x3 x4 x1) (k0_pay4 x3 x4 x2) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S1x256x256) hz3]
  simp only [View.readCov_unit_zero (S := S4096x256) _ hz2, View.readAt_eq_ld, harg2.read_unread, harg3.read_unread,
    harg4.read_unread, harg5.read_unread, harg6.read_unread,
    View.ld_unit_zero (S := S256x256) hz2, View.ld_unit_zero (S := S1x256) hz2, View.ld_unit_zero (S := S1x4096x256) hz3,
    View.ld_unit_zero (S := S1x256x256) hz3]

/-- Any later tile: the output block is the attention of the query block over what the scratch buffers hold. -/
theorem out_later (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S4096x256 .bf16) (harg8 : arg8.IsWhole) (arg9 : Memref sig .tc .vmem S4096x256 .bf16) (harg9 : arg9.IsWhole) (hc0 : ¬cond0_0 i)
    (x0 : Vec F S1x256x256 .f32) (x1 : Vec F S1x4096x256 .f32) (x2 : Vec F S1x4096x256 .f32) (x3 : Vec F S256x256 .f32) (x4 : Vec F S1x256 .f32) (xs0 xs1 : Vec F S4096x256 .bf16) :
    out0_B_5 c i arg2 harg2 arg3 harg3 arg4 harg4 arg5 harg5 arg6 harg6 arg7 harg7 arg8 harg8 arg9 harg9 hc0 x0 x1 x2 x3 x4 xs0 xs1 = k0_pay5 x3 x4 x0 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero (S := S1x256x256) hz3]
  simp only [View.readAt_eq_ld, harg2.read_unread, harg5.read_unread, harg6.read_unread, harg8.read_unread, harg9.read_unread,
    View.ld_unit_zero (S := S256x256) hz2, View.ld_unit_zero (S := S1x256) hz2, View.ld_unit_zero (S := S4096x256) hz2,
    View.ld_unit_zero (S := S1x256x256) hz3]

end Cert.KernelIdeal.Pieces

end
-- ==== Proof.Spec.lean ====
/-
  The specification: single-head softmax attention over projected inputs, index by index on the extended reals.

  Every one of the three inputs (queries, keys, values; each 4 batches of 4096 rows of width 256) is projected by
  the SAME weight and bias: row s of batch b becomes, at output feature o, the sum over d of x[b,s,d]·W[o,d] plus
  bias[o]. A score row pairs one projected query row with all 4096 projected key rows of its batch; the softmax
  of a score row subtracts the row's maximum, exponentiates, and divides by the sum; the output at feature o is
  the softmax row paired with column o of the projected values.

  The two programs differ in ONE place, the scale of a score: one multiplies each projected query entry by the
  word of 0.0625 before pairing it with the key (`scoreScaledQuery`), the other divides the finished pairing by
  the square root of the word of 256.0 (`scoreDivided`). Everything else is stated once, over an abstract score.
-/
import Idealize.ShloMosaic.PureOps.Ideal
import Idealize.ShloMosaic.Lib.ValueIdx

noncomputable section

namespace Cert.Attn

open Idealize.ShloMosaic Idealize.ShloMosaic.ValueIdx

/-- An input or output array: batch, row, feature. -/
abbrev Arr3 := (⟨3, ![4, 4096, 256]⟩ : Shape).Idx → EReal
/-- The weight: output feature, input feature. -/
abbrev Arr2 := (⟨2, ![256, 256]⟩ : Shape).Idx → EReal
/-- The bias: output feature. -/
abbrev Arr1 := (⟨1, ![256]⟩ : Shape).Idx → EReal

/-- The shared linear projection of row `s` of batch `b`, at output feature `o`. -/
def proj (x : Arr3) (w : Arr2) (bq : Arr1) (b : Fin 4) (s : Fin 4096) (o : Fin 256) : EReal :=
  (∑ d : Fin 256, x (ix3 b s d) * w (ix2 o d)) + bq (ix1 o)

/-- The maximum of a score row, folded from the word of −∞. -/
def rowMax (sc : Fin 4096 → EReal) : EReal :=
  (Finset.univ : Finset (Fin 4096)).fold max (Ideal.ofBits .f32 0xFF800000#32) sc

/-- One output entry: the softmax of the score row `sc` paired with the value column `v`. -/
def softRow (sc v : Fin 4096 → EReal) : EReal :=
  ∑ k : Fin 4096, Ideal.div (Ideal.exp (sc k - rowMax sc)) (∑ k' : Fin 4096, Ideal.exp (sc k' - rowMax sc)) * v k

/-- A score with the scale folded into the query: each query entry times the word of 0.0625, then paired with the key. -/
def scoreScaledQuery (q k : Fin 256 → EReal) : EReal :=
  ∑ d : Fin 256, q d * Ideal.ofBits .f32 0x3D800000#32 * k d

/-- A score with the scale applied last: the pairing divided by the square root of the word of 256.0. -/
def scoreDivided (q k : Fin 256 → EReal) : EReal :=
  Ideal.div (∑ d : Fin 256, q d * k d) (Ideal.sqrt (Ideal.ofBits .f32 0x43800000#32))

/-- Attention over the three projected inputs, for a given way of scoring a query row against a key row. -/
def attn (score : (Fin 256 → EReal) → (Fin 256 → EReal) → EReal) (x0 x1 x2 : Arr3) (w : Arr2) (bq : Arr1)
    (b : Fin 4) (s : Fin 4096) (o : Fin 256) : EReal :=
  softRow (fun k => score (proj x0 w bq b s) (proj x1 w bq b k)) (fun k => proj x2 w bq b k o)

/-- A function of the three coordinates as an array. -/
def arr3 (f : Fin 4 → Fin 4096 → Fin 256 → EReal) : Arr3 := fun i => f (i 0) (i 1) (i 2)

theorem arr3_ix3 (f : Fin 4 → Fin 4096 → Fin 256 → EReal) (b : Fin 4) (s : Fin 4096) (o : Fin 256) :
    arr3 f (ix3 b s o) = f b s o := rfl

end Cert.Attn

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Payload.lean ====
/-
  The kernel body's arithmetic read at an index, on the extended reals (every change of float format is the
  identity there).

  * The key and the value projections stored at a batch's first tile: entry (s, o) is the sum over d of the input
    block's (s, d) times the transposed weight's (d, o), plus the bias row's o.
  * The attention output of a query tile: the query block is projected the same way and every entry multiplied by
    the word of 0.0625; a score (r, k) pairs scaled query row r with key-projection row k (the kernel transposes the
    key projection, so the product reads it at (k, d)); each score row loses its maximum, is exponentiated and
    divided by its sum; output (r, o) pairs that row with column o of the value projection.
-/
import proofs.«173632_j6365141532793_2_alg».proof.Proof.Gen.KernelIdeal.Skeleton
import proofs.«173632_j6365141532793_2_alg».proof.Proof.Spec
import proofs.«173632_j6365141532793_2_alg».proof.Proof.LibKeepdims
import proofs.«173632_j6365141532793_2_alg».proof.Proof.LibMatmul
import Idealize.ShloMosaic.Lib.ValueLayout
import Idealize.ShloMosaic.Lib.Pipeline.Value
import Idealize.ShloMosaic.PureOps.Ideal.Laws

set_option maxRecDepth 16384

noncomputable section

namespace Cert.KernelIdeal.Payload

open Cert.KernelIdeal Cert.KernelIdeal.Gen Idealize.ShloMosaic Idealize.ShloMosaic.ValueIdx Cert.Attn

/-! ## The two projections stored in the scratch buffers -/

/-- The key projection at (s, o). -/
theorem kproj_apply (w : FVec Ideal S256x256 .f32) (bb : FVec Ideal S1x256 .f32) (x : FVec Ideal S1x4096x256 .f32)
    (s : Fin 4096) (o : Fin 256) :
    k0_pay3 (F := Ideal) w bb x (ix2 s o)
      = (∑ d : Fin 256, x (ix3 (0 : Fin 1) s d) * w (ix2 d o)) + bb (ix2 (0 : Fin 1) o) := by
  unfold k0_pay3 k0_pay1 k0_pay2
  simp only [shapeCast_self]
  show (_ : EReal) + broadcastTo S4096x256 bb broadcasts_S1x256_S4096x256 (ix2 s o) = _
  refine congrArg₂ (· + ·) ?_ (broadcastTo_1b_ab_apply bb _ s o)
  refine (matmul_plain_zero_apply 4096 256 256 none _ _ s o).trans ?_
  exact Finset.sum_congr rfl fun d _ => congrArg (· * _) (shapeCast_1ab_ab_apply x _ s d)

/-- The value projection at (s, o): the same function of its own input block. -/
theorem vproj_apply (w : FVec Ideal S256x256 .f32) (bb : FVec Ideal S1x256 .f32) (x : FVec Ideal S1x4096x256 .f32)
    (s : Fin 4096) (o : Fin 256) :
    k0_pay4 (F := Ideal) w bb x (ix2 s o)
      = (∑ d : Fin 256, x (ix3 (0 : Fin 1) s d) * w (ix2 d o)) + bb (ix2 (0 : Fin 1) o) := by
  unfold k0_pay4 k0_pay1 k0_pay2
  simp only [shapeCast_self]
  show (_ : EReal) + broadcastTo S4096x256 bb broadcasts_S1x256_S4096x256 (ix2 s o) = _
  refine congrArg₂ (· + ·) ?_ (broadcastTo_1b_ab_apply bb _ s o)
  refine (matmul_plain_zero_apply 4096 256 256 none _ _ s o).trans ?_
  exact Finset.sum_congr rfl fun d _ => congrArg (· * _) (shapeCast_1ab_ab_apply x _ s d)

/-! ## The attention output, in four named stages -/

/-- The query block projected and scaled. -/
def scaledQ (w : FVec Ideal S256x256 .f32) (bb : FVec Ideal S1x256 .f32) (q : FVec Ideal S1x256x256 .f32) : FVec Ideal S256x256 .bf16 :=
  truncf .bf16 (mulf (addf (matmul dot_S256x256_S256x256_S256x256_1_0_0_1_n_n none
      (truncf .bf16 (shapeCast S256x256 q shapeCasts_S1x256x256_S256x256) bitsLt_bf16_f32)
      (truncf .bf16 (shapeCast S256x256 w shapeCasts_S256x256_S256x256) bitsLt_bf16_f32) (constant S256x256 .f32 0x00000000#32))
    (broadcastTo S256x256 (shapeCast S1x256 bb shapeCasts_S1x256_S1x256) broadcasts_S1x256_S256x256))
    (broadcast S256x256 (Scalar.ofBits .f32 0x3D800000#32))) bitsLt_bf16_f32

/-- The scores of a scaled query block against a key projection. -/
def scores (qs : FVec Ideal S256x256 .bf16) (ks : FVec Ideal S4096x256 .bf16) : FVec Ideal S256x4096 .f32 :=
  matmul dot_S256x256_S256x4096_S256x4096_1_0_0_1_n_n none qs
    (transpose S256x4096 [1, 0] ks transposes_S4096x256_p1_0_S256x4096) (constant S256x4096 .f32 0x00000000#32)

/-- The exponentials of the scores less their rows' maxima. -/
def expRows (sc : FVec Ideal S256x4096 .f32) : FVec Ideal S256x4096 .f32 :=
  exp (subf sc (broadcastTo S256x4096 (shapeCast S256x1
    (multiReduction .maximumf [1] S256 sc 0xFF800000#32 reduces_S256x4096_S256 (.inl rfl) rfl) shapeCasts_S256_S256x1)
    broadcasts_S256x1_S256x4096))

/-- The rows' softmax paired with the value projection. -/
def softmaxTimes (sc : FVec Ideal S256x4096 .f32) (vs : FVec Ideal S4096x256 .bf16) : FVec Ideal S1x256x256 .f32 :=
  shapeCast S1x256x256 (matmul dot_S256x4096_S4096x256_S256x256_1_0_0_1_n_n none
    (truncf .bf16 (divf (expRows sc) (broadcastTo S256x4096 (shapeCast S256x1
      (multiReduction .add [1] S256 (expRows sc) 0x00000000#32 reduces_S256x4096_S256 (.inl rfl) rfl) shapeCasts_S256_S256x1)
      broadcasts_S256x1_S256x4096)) bitsLt_bf16_f32)
    vs (constant S256x256 .f32 0x00000000#32)) shapeCasts_S256x256_S1x256x256

/-- The attention payload is the four stages composed. -/
theorem pay5_eq (w : FVec Ideal S256x256 .f32) (bb : FVec Ideal S1x256 .f32) (q : FVec Ideal S1x256x256 .f32)
    (ks vs : FVec Ideal S4096x256 .bf16) :
    k0_pay5 (F := Ideal) w bb q ks vs = softmaxTimes (scores (scaledQ w bb q) ks) vs := rfl

/-- The scaled query at (r, d). -/
theorem scaledQ_apply (w : FVec Ideal S256x256 .f32) (bb : FVec Ideal S1x256 .f32) (q : FVec Ideal S1x256x256 .f32)
    (r d : Fin 256) :
    scaledQ w bb q (ix2 r d)
      = ((∑ d' : Fin 256, q (ix3 (0 : Fin 1) r d') * w (ix2 d' d)) + bb (ix2 (0 : Fin 1) d)) * Ideal.ofBits .f32 0x3D800000#32 := by
  unfold scaledQ
  simp only [shapeCast_self]
  show ((_ : EReal) + broadcastTo S256x256 bb broadcasts_S1x256_S256x256 (ix2 r d)) * Ideal.ofBits .f32 0x3D800000#32 = _
  refine congrArg (· * _) (congrArg₂ (· + ·) ?_ (broadcastTo_1b_ab_apply bb _ r d))
  refine (matmul_plain_zero_apply 256 256 256 none _ _ r d).trans ?_
  exact Finset.sum_congr rfl fun d' _ => congrArg (· * _) (shapeCast_1ab_ab_apply q _ r d')

/-- A score at (r, k). -/
theorem scores_apply (qs : FVec Ideal S256x256 .bf16) (ks : FVec Ideal S4096x256 .bf16) (r : Fin 256) (k : Fin 4096) :
    scores qs ks (ix2 r k) = ∑ d : Fin 256, qs (ix2 r d) * ks (ix2 k d) := by
  unfold scores
  refine (matmul_plain_zero_apply 256 256 4096 none _ _ r k).trans ?_
  exact Finset.sum_congr rfl fun d _ => congrArg (_ * ·) (transpose_ix2_apply ks _ d k)

/-- An exponential at (r, k). -/
theorem expRows_apply (sc : FVec Ideal S256x4096 .f32) (r : Fin 256) (k : Fin 4096) :
    expRows sc (ix2 r k) = Ideal.exp (sc (ix2 r k) - rowMax (fun k' => sc (ix2 r k'))) := by
  unfold expRows
  show Ideal.exp (sc (ix2 r k) - broadcastTo S256x4096 _ broadcasts_S256x1_S256x4096 (ix2 r k)) = _
  refine congrArg (fun z => Ideal.exp (sc (ix2 r k) - z)) ?_
  refine (broadcastTo_a1_ab_apply _ _ r k).trans ?_
  refine (shapeCast_a_a1_apply _ _ r 0).trans ?_
  exact multiReduction_maximumf_rows_apply sc _ _ _ _ r

/-- The output at (r, o). -/
theorem softmaxTimes_apply (sc : FVec Ideal S256x4096 .f32) (vs : FVec Ideal S4096x256 .bf16) (r o : Fin 256) :
    softmaxTimes sc vs (ix3 (0 : Fin 1) r o) = softRow (fun k => sc (ix2 r k)) (fun k => vs (ix2 k o)) := by
  unfold softmaxTimes softRow
  refine (shapeCast_ab_1ab_apply _ _ 0 r o).trans ?_
  refine (matmul_plain_zero_apply 256 4096 256 none _ _ r o).trans ?_
  refine Finset.sum_congr rfl fun k _ => congrArg (· * _) ?_
  show Ideal.div (expRows sc (ix2 r k)) (broadcastTo S256x4096 _ broadcasts_S256x1_S256x4096 (ix2 r k)) = _
  refine congrArg₂ Ideal.div (expRows_apply sc r k) ?_
  refine (broadcastTo_a1_ab_apply _ _ r k).trans ?_
  refine (shapeCast_a_a1_apply _ _ r 0).trans ?_
  refine (multiReduction_add_rows_apply (expRows sc) _ _ _ _ r).trans ?_
  exact Finset.sum_congr rfl fun k' _ => expRows_apply sc r k'

/-- THE ATTENTION OUTPUT at (r, o), from the blocks the body read. -/
theorem attn_apply (w : FVec Ideal S256x256 .f32) (bb : FVec Ideal S1x256 .f32) (q : FVec Ideal S1x256x256 .f32)
    (ks vs : FVec Ideal S4096x256 .bf16) (r o : Fin 256) :
    k0_pay5 (F := Ideal) w bb q ks vs (ix3 (0 : Fin 1) r o)
      = softRow (fun k => scoreScaledQuery
          (fun d => (∑ d' : Fin 256, q (ix3 (0 : Fin 1) r d') * w (ix2 d' d)) + bb (ix2 (0 : Fin 1) d))
          (fun d => ks (ix2 k d)))
        (fun k => vs (ix2 k o)) := by
  rw [pay5_eq]
  refine (softmaxTimes_apply _ vs r o).trans ?_
  refine congrArg (fun sc => softRow sc _) (funext fun k => ?_)
  refine (scores_apply _ ks r k).trans ?_
  unfold scoreScaledQuery
  exact Finset.sum_congr rfl fun d _ => congrArg (· * _) (scaledQ_apply w bb q r d)

end Cert.KernelIdeal.Payload

end
-- ==== Proof.Blocks.lean ====
/-
  The blocks the kernel body reads at a grid point, as entries of the argument arrays. Point t works on batch
  t / 16 and query tile t mod 16: the query block is rows 256·(t mod 16) … of that batch's queries; the key and the
  value blocks are that batch's whole 4096 rows; the weight block is the whole TRANSPOSED weight the host prepared
  (entry (d, o) is the weight's (o, d)); the bias block is the bias as one row.
-/
import proofs.«173632_j6365141532793_2_alg».proof.Proof.Gen.KernelIdeal.Value
import proofs.«173632_j6365141532793_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx Cert.Attn

variable (m : (ℓ : Loc nD τ sig) → Buf (Elt Ideal) ℓ)

/-- The windows' block indices at point `t`, decided over the 64 points: batch t / 16, tile t mod 16. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = t.val % 16 ∧ win0_5.index t (2 : Fin 3) = 0 :=
  (by decide +kernel : ∀ t : Fin grid0.N, _)

/-- The query block at (r, d): row 256·(t mod 16) + r of batch t / 16. -/
theorem qblk_apply (c : Dev nD) (t : Fin cfg0.N) (r d : Fin 256) (b : Fin 4) (s : Fin 4096)
    (hb : b.val = t.val / 16) (hs : s.val = t.val % 16 * 256 + r.val) :
    (iblk m c 0 t : Vec Ideal S1x256x256 .f32) (ix3 (0 : Fin 1) r d) = m ((c : Thread nD τ).loc main_arg0) (ix3 b s d) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = b.val; omega
  | ⟨1, _⟩ => show win0_0.index t (1 : Fin 3) * 256 + 1 * r.val = s.val; omega
  | ⟨2, _⟩ => show win0_0.index t (2 : Fin 3) * 256 + 1 * d.val = d.val; omega

/-- The key block at (s, d): row s of batch t / 16. -/
theorem kblk_apply (c : Dev nD) (t : Fin cfg0.N) (s : Fin 4096) (d : Fin 256) (b : Fin 4) (hb : b.val = t.val / 16) :
    (iblk m c 1 t : Vec Ideal S1x4096x256 .f32) (ix3 (0 : Fin 1) s d) = m ((c : Thread nD τ).loc main_arg1) (ix3 b s d) := by
  obtain ⟨-, -, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 1 + 1 * 0 = b.val; omega
  | ⟨1, _⟩ => show win0_1.index t (1 : Fin 3) * 4096 + 1 * s.val = s.val; omega
  | ⟨2, _⟩ => show win0_1.index t (2 : Fin 3) * 256 + 1 * d.val = d.val; omega

/-- The value block at (s, d): row s of batch t / 16. -/
theorem vblk_apply (c : Dev nD) (t : Fin cfg0.N) (s : Fin 4096) (d : Fin 256) (b : Fin 4) (hb : b.val = t.val / 16) :
    (iblk m c 2 t : Vec Ideal S1x4096x256 .f32) (ix3 (0 : Fin 1) s d) = m ((c : Thread nD τ).loc main_arg2) (ix3 b s d) := by
  obtain ⟨-, -, -, -, -, -, e0, e1, e2, -⟩ := idx_facts t
  unfold iblk
  rw [View.read_apply]
  show V m c main_arg2 _ = _
  rw [V_main_arg2]
  congr 1
  funext a
  apply Fin.ext
  match a with
  | ⟨0, _⟩ => show win0_2.index t (0 : Fin 3) * 1 + 1 * 0 = b.val; omega
  | ⟨1, _⟩ => show win0_2.index t (1 : Fin 3) * 4096 + 1 * s.val = s.val; omega
  | ⟨2, _⟩ => show win0_2.index t (2 : Fin 3) * 256 + 1 * d.val = d.val; omega

/-- The array the host prepared for the weight window is the weight transposed. -/
theorem wT_apply (c : Dev nD) (d o : Fin 256) :
    (V m c main_v0 : S256x256.Idx → EReal) (ix2 d o) = m ((c : Thread nD τ).loc main_arg3) (ix2 o d) := by
  have e : (V m c main_v0 : S256x256.Idx → EReal)
      = transpose S256x256 [1, 0] (m ((c : Thread nD τ).loc main_arg3)) transposes_S256x256_S256x256_1_0 := by
    dsimp only [Gen.V, Gen.hostOps0]; after_results
  rw [e]
  exact transpose_ix2_apply _ _ d o

/-- The array the host prepared for the bias window is the bias as one row. -/
theorem bias_apply (c : Dev nD) (o : Fin 256) :
    (V m c main_v1 : S1x256.Idx → EReal) (ix2 (0 : Fin 1) o) = m ((c : Thread nD τ).loc main_arg4) (ix1 o) := by
  have e : (V m c main_v1 : S1x256.Idx → EReal)
      = shapeCast S1x256 (m ((c : Thread nD τ).loc main_arg4)) shapeCasts_S256_S1x256 := by
    dsimp only [Gen.V, Gen.hostOps0]; after_results; rfl
  rw [e]
  exact shapeCast_a_1a_apply _ _ 0 o

/-- The weight block at (d, o), at every point: the weight's (o, d). -/
theorem wblk_apply (c : Dev nD) (t : Fin cfg0.N) (d o : Fin 256) :
    (iblk m c 3 t : Vec Ideal S256x256 .f32) (ix2 d o) = m ((c : Thread nD τ).loc main_arg3) (ix2 o d) := by
  obtain ⟨-, -, -, -, -, -, -, -, -, e0, e1, -⟩ := idx_facts t
  unfold iblk
  rw [View.read_apply]
  show V m c main_v0 _ = _
  refine Eq.trans (congrArg (V m c main_v0) ?_) (wT_apply m c d o)
  funext a
  apply Fin.ext
  match a with
  | ⟨0, _⟩ => show win0_3.index t (0 : Fin 2) * 256 + 1 * d.val = d.val; omega
  | ⟨1, _⟩ => show win0_3.index t (1 : Fin 2) * 256 + 1 * o.val = o.val; omega

/-- The bias block at (0, o), at every point: the bias's o. -/
theorem bblk_apply (c : Dev nD) (t : Fin cfg0.N) (o : Fin 256) :
    (iblk m c 4 t : Vec Ideal S1x256 .f32) (ix2 (0 : Fin 1) o) = m ((c : Thread nD τ).loc main_arg4) (ix1 o) := by
  obtain ⟨-, -, -, -, -, -, -, -, -, -, -, e0, e1, -⟩ := idx_facts t
  unfold iblk
  rw [View.read_apply]
  show V m c main_v1 _ = _
  refine Eq.trans (congrArg (V m c main_v1) ?_) (bias_apply m c o)
  funext a
  apply Fin.ext
  match a with
  | ⟨0, _⟩ => show win0_4.index t (0 : Fin 2) * 1 + 1 * 0 = 0; omega
  | ⟨1, _⟩ => show win0_4.index t (1 : Fin 2) * 256 + 1 * o.val = o.val; omega

/-- A row of a block, projected through the weight and bias blocks of point `t`, is the specification's projection
    of the array row it is. -/
theorem proj_of_blocks (c : Dev nD) (t : Fin cfg0.N) (X : Arr3) (xrow : Fin 256 → EReal) (b : Fin 4) (s : Fin 4096)
    (hx : ∀ d, xrow d = X (ix3 b s d)) (o : Fin 256) :
    (∑ d : Fin 256, xrow d * (iblk m c 3 t : Vec Ideal S256x256 .f32) (ix2 d o)) + (iblk m c 4 t : Vec Ideal S1x256 .f32) (ix2 (0 : Fin 1) o)
      = proj X (m ((c : Thread nD τ).loc main_arg3)) (m ((c : Thread nD τ).loc main_arg4)) b s o := by
  unfold proj
  exact congrArg₂ (· + ·) (Finset.sum_congr rfl fun d _ => congrArg₂ (· * ·) (hx d) (wblk_apply m c t d o)) (bblk_apply m c t o)

end Cert.KernelIdeal.Blocks

end
-- ==== Proof.Carry.lean ====
/-
  The kernel's result array. The two scratch buffers are carried from one grid point to the next: they are
  written at the first query tile of a batch (the points divisible by 16) and only read at the fifteen tiles that
  follow, so after every point they hold the key and the value projections of the batch the point works on
  (induction on the point). Hence every point writes back, at (r, o) of its block, the specification's attention
  (scale folded into the query) at batch t / 16, row 256·(t mod 16) + r, feature o; the 64 blocks tile the result
  array, so the array ends holding that function.
-/
import proofs.«173632_j6365141532793_2_alg».proof.Proof.Pieces
import proofs.«173632_j6365141532793_2_alg».proof.Proof.Payload
import proofs.«173632_j6365141532793_2_alg».proof.Proof.Blocks

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen Idealize.ShloMosaic.ValueIdx Cert.Attn

variable (m : (ℓ : Loc nD τ sig) → Buf (Elt Ideal) ℓ) (ρ : Dev nD → PrngReg)

/-- The five argument arrays as launched. -/
abbrev Qa (c : Dev nD) : Arr3 := m ((c : Thread nD τ).loc main_arg0)
abbrev Ka (c : Dev nD) : Arr3 := m ((c : Thread nD τ).loc main_arg1)
abbrev Va (c : Dev nD) : Arr3 := m ((c : Thread nD τ).loc main_arg2)
abbrev Wa (c : Dev nD) : Arr2 := m ((c : Thread nD τ).loc main_arg3)
abbrev Ba (c : Dev nD) : Arr1 := m ((c : Thread nD τ).loc main_arg4)

/-- At the first tile of a batch the scratch buffers end holding that batch's key and value projections. -/
theorem scratch_first (c : Dev nD) (t : Fin cfg0.N) (h0 : t.val % 16 = 0) (b : Fin 4) (hb : b.val = t.val / 16)
    (s : Fin 4096) (o : Fin 256) :
    (outsAt0 m c t.val t.isLt).2.1 (ix2 s o) = proj (Ka m c) (Wa m c) (Ba m c) b s o
    ∧ (outsAt0 m c t.val t.isLt).2.2 (ix2 s o) = proj (Va m c) (Wa m c) (Ba m c) b s o := by
  rw [outsAt0_A m c t h0]
  dsimp only
  constructor
  · refine (congrFun (Pieces.kscr_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) (ix2 s o)).trans ?_
    refine (Payload.kproj_apply (iblk m c 3 t) (iblk m c 4 t) (iblk m c 1 t) s o).trans ?_
    exact Blocks.proj_of_blocks m c t (Ka m c) _ b s (fun d => Blocks.kblk_apply m c t s d b hb) o
  · refine (congrFun (Pieces.vscr_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) (ix2 s o)).trans ?_
    refine (Payload.vproj_apply (iblk m c 3 t) (iblk m c 4 t) (iblk m c 2 t) s o).trans ?_
    exact Blocks.proj_of_blocks m c t (Va m c) _ b s (fun d => Blocks.vblk_apply m c t s d b hb) o

/-- THE CARRIED SCRATCH: after every point the scratch buffers hold the key and the value projections of the batch
    the point works on — written at the batch's first tile, untouched at the others. -/
theorem scratch_inv (c : Dev nD) : ∀ (n : ℕ) (hn : n < cfg0.N) (b : Fin 4) (hb : b.val = n / 16) (s : Fin 4096) (o : Fin 256),
    (outsAt0 m c n hn).2.1 (ix2 s o) = proj (Ka m c) (Wa m c) (Ba m c) b s o
    ∧ (outsAt0 m c n hn).2.2 (ix2 s o) = proj (Va m c) (Wa m c) (Ba m c) b s o := by
  intro n
  induction n with
  | zero =>
    intro hn b hb s o
    exact scratch_first m c ⟨0, hn⟩ rfl b hb s o
  | succ n ih =>
    intro hn b hb s o
    by_cases h0 : (n + 1) % 16 = 0
    · exact scratch_first m c ⟨n + 1, hn⟩ h0 b hb s o
    · have hB : ¬(⟨n + 1, hn⟩ : Fin cfg0.N).val % 16 = 0 := h0
      rw [outsAt0_B m c ⟨n + 1, hn⟩ hB]
      dsimp only
      exact ih (Nat.lt_of_succ_lt hn) b (by omega) s o

/-- WHAT A POINT LEAVES IN THE OUTPUT BLOCK, at (r, o): the specification's attention at the array row the block
    row is. -/
theorem out_point (c : Dev nD) (t : Fin cfg0.N) (b : Fin 4) (hb : b.val = t.val / 16) (r o : Fin 256) (s : Fin 4096)
    (hs : s.val = t.val % 16 * 256 + r.val) :
    (outsAt0 m c t.val t.isLt).1 (ix3 (0 : Fin 1) r o)
      = attn scoreScaledQuery (Qa m c) (Ka m c) (Va m c) (Wa m c) (Ba m c) b s o := by
  by_cases h0 : t.val % 16 = 0
  · rw [outsAt0_A m c t h0]
    dsimp only
    refine (congrFun (Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) (ix3 (0 : Fin 1) r o)).trans ?_
    refine (Payload.attn_apply (iblk m c 3 t) (iblk m c 4 t) (iblk m c 0 t) _ _ r o).trans ?_
    unfold attn
    refine congrArg₂ softRow (funext fun k => congrArg₂ scoreScaledQuery (funext fun d => ?_) (funext fun d => ?_)) (funext fun k => ?_)
    · exact Blocks.proj_of_blocks m c t (Qa m c) _ b s (fun d' => Blocks.qblk_apply m c t r d' b s hb hs) d
    · refine (Payload.kproj_apply (iblk m c 3 t) (iblk m c 4 t) (iblk m c 1 t) k d).trans ?_
      exact Blocks.proj_of_blocks m c t (Ka m c) _ b k (fun d' => Blocks.kblk_apply m c t k d' b hb) d
    · refine (Payload.vproj_apply (iblk m c 3 t) (iblk m c 4 t) (iblk m c 2 t) k o).trans ?_
      exact Blocks.proj_of_blocks m c t (Va m c) _ b k (fun d' => Blocks.vblk_apply m c t k d' b hb) o
  · rw [outsAt0_B m c t h0]
    dsimp only
    refine (congrFun (Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) r o)).trans ?_
    refine (Payload.attn_apply (iblk m c 3 t) (iblk m c 4 t) (iblk m c 0 t) _ _ r o).trans ?_
    unfold attn
    have hprev : b.val = (t.val - 1) / 16 := by omega
    refine congrArg₂ softRow (funext fun k => congrArg₂ scoreScaledQuery (funext fun d => ?_) (funext fun d => ?_)) (funext fun k => ?_)
    · exact Blocks.proj_of_blocks m c t (Qa m c) _ b s (fun d' => Blocks.qblk_apply m c t r d' b s hb hs) d
    · exact (scratch_inv m c (t.val - 1) _ b hprev k d).1
    · exact (scratch_inv m c (t.val - 1) _ b hprev k o).2

/-- The result array's contents: the specification's attention with the scale folded into the query. -/
abbrev result (c : Dev nD) : Arr3 := arr3 (attn scoreScaledQuery (Qa m c) (Ka m c) (Va m c) (Wa m c) (Ba m c))

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  refine funext fun (y : (⟨3, ![1, 256, 256]⟩ : Shape).Idx) => ?_
  obtain ⟨u, r, o, rfl⟩ : ∃ (u : Fin 1) (r o : Fin 256), y = ix3 u r o := ⟨y 0, y 1, y 2, eq_ix3 y⟩
  obtain rfl : u = 0 := Subsingleton.elim _ _
  have hN : t.val < 64 := lt_of_lt_of_eq t.isLt N_0
  obtain ⟨-, -, -, -, -, -, -, -, -, -, -, -, -, e0, e1, e2⟩ := Blocks.idx_facts t
  rw [View.read_apply]
  have hemb : ((cfg0.win 5).blk t).view.emb (ix3 (0 : Fin 1) r o)
      = ix3 (⟨t.val / 16, by omega⟩ : Fin 4) (⟨t.val % 16 * 256 + r.val, by have := r.isLt; omega⟩ : Fin 4096) o := by
    funext a
    apply Fin.ext
    match a with
    | ⟨0, _⟩ => show win0_5.index t (0 : Fin 3) * 1 + 1 * 0 = t.val / 16; omega
    | ⟨1, _⟩ => show win0_5.index t (1 : Fin 3) * 256 + 1 * r.val = t.val % 16 * 256 + r.val; omega
    | ⟨2, _⟩ => show win0_5.index t (2 : Fin 3) * 256 + 1 * o.val = o.val; omega
  rw [hemb]
  show (outsAt0 m c t.val t.isLt).1 (ix3 (0 : Fin 1) r o) = _
  exact out_point m c t _ rfl r o _ rfl

/-- An index of the result array is in point `t`'s block iff each coordinate is in the block's range on its axis. -/
theorem mem_blk (t : Fin cfg0.N) (i : S4x4096x256.Idx) :
    i ∈ ((cfg0.win 5).blk t).view.set
      ↔ ∀ a : Fin 3, win0_5.index t a * S1x256x256.size a ≤ (i a).val ∧ (i a).val < win0_5.index t a * S1x256x256.size a + S1x256x256.size a := by
  show i ∈ ((View.whole main_v2).slice (win0_5.rect t)).set ↔ _
  rw [View.set_slice_whole, Rect.mem_set_unit]
  exact Iff.rfl

/-- The 64 blocks tile the result array: row s of batch b is in the block of point 16·b + s / 256. -/
theorem cover (i : S4x4096x256.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 256 := (i 2).isLt
  have hN : cfg0.N = 64 := N_0
  let t : Fin cfg0.N := ⟨(i 0).val * 16 + (i 1).val / 256, by rw [hN]; omega⟩
  have ht : t.val = (i 0).val * 16 + (i 1).val / 256 := rfl
  obtain ⟨-, -, -, -, -, -, -, -, -, -, -, -, -, e0, e1, e2⟩ := Blocks.idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- THE RESULT ARRAY after the run. -/
theorem final (c : Dev nD) : (dats m 0 c).arrAt 5 cfg0.N = result m c :=
  (dats m 0 c).arrAt_eq_of_cover 5 (result m c) (fun t _ => flushed_eq m c t) cover

/-- THE KERNEL'S RUN: every weakly fair execution ends with the result array at the specification's attention
    (scale folded into the query) of the argument arrays, and the argument arrays unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Carry

end
-- ==== Proof.Scale.lean ====
/-
  The numeric facts of the certificate. The reference divides the scores by the square root of the model
  width 256; the kernel multiplies the projected queries by 2⁻⁴. On the extended reals the square root of 256
  is 16, the word of 256.0 denotes 256, the word of 0.0625 denotes 1/16, the word both maximum reductions
  start from denotes −∞, and the word the precondition compares against denotes +∞.
-/
import Idealize.ShloMosaic.PureOps.Ideal

noncomputable section

namespace Cert.Attn

open Idealize.ShloMosaic

/-- The real square root of 256 is 16. -/
theorem real_sqrt_256 : Real.sqrt 256 = 16 := by
  rw [show (256 : ℝ) = 16 ^ 2 by norm_num]
  exact Real.sqrt_sq (by norm_num)

/-- On the extended reals the square root of 256 is 16. -/
theorem sqrt_256 : Ideal.sqrt ((256 : ℝ) : EReal) = ((16 : ℝ) : EReal) := by
  rw [Ideal.sqrt_coe, if_neg (by norm_num), real_sqrt_256]

/-- The word of `256.0` denotes the real 256. -/
theorem ofBits_256 : Ideal.ofBits .f32 0x43800000#32 = ((256 : ℝ) : EReal) := by
  simp [Ideal.ofBits, Ideal.ieee, -EReal.coe_mul]; norm_num

/-- The word of `0.0625` denotes the real 1/16. -/
theorem ofBits_sixteenth : Ideal.ofBits .f32 0x3D800000#32 = ((1 / 16 : ℝ) : EReal) := by
  simp [Ideal.ofBits, Ideal.ieee, -EReal.coe_mul]; norm_num

/-- The word the maximum reductions start from denotes −∞. -/
theorem ofBits_negInf : Ideal.ofBits .f32 0xFF800000#32 = (⊥ : EReal) := by
  simp [Ideal.ofBits, Ideal.ieee]

/-- The word the precondition compares absolute values against denotes +∞. -/
theorem ofBits_posInf : Ideal.ofBits .f32 0x7F800000#32 = (⊤ : EReal) := by
  simp [Ideal.ofBits, Ideal.ieee]

/-- The word the sums start from denotes 0. -/
theorem ofBits_zero : Ideal.ofBits .f32 0x00000000#32 = (0 : EReal) := by
  simp [Ideal.ofBits, Ideal.ieee]

/-- The reference's divisor: the square root of the word of 256.0 is 16. -/
theorem sqrt_ofBits_256 : Ideal.sqrt (Ideal.ofBits .f32 0x43800000#32) = ((16 : ℝ) : EReal) := by
  rw [ofBits_256, sqrt_256]

end Cert.Attn

end
-- ==== Proof.RefSpec.lean ====
/-
  The reference, read one operation at a time, IS the specification's attention with the scale applied last:
  three projections by the shared weight and bias; the pairing of projected queries and keys divided by the square
  root of the word of 256.0; each score row's maximum (a maximum-reduction from −∞, then once more the maximum with
  −∞, which changes nothing); the exponentials of the differences; their sum from the word of 0 (which adds
  nothing); the quotients; and the pairing with the projected values.
-/
import proofs.«173632_j6365141532793_2_alg».proof.Proof.Gen.ReferenceIdeal.Read
import proofs.«173632_j6365141532793_2_alg».proof.Proof.Spec
import proofs.«173632_j6365141532793_2_alg».proof.Proof.Scale

noncomputable section

namespace Cert.ReferenceIdeal.RefSpec

open Cert.ReferenceIdeal Cert.ReferenceIdeal.Gen Cert.ReferenceIdeal.Read Idealize.ShloMosaic Idealize.ShloMosaic.ValueIdx Cert.Attn

/-- The reference's proj_q: the shared projection of its input. -/
theorem proj_q (x : (⟨S4x4096x256, .f32⟩ : BufTy).Contents (Elt Ideal)) (x3 : (⟨S256x256, .f32⟩ : BufTy).Contents (Elt Ideal)) (x4 : (⟨S256, .f32⟩ : BufTy).Contents (Elt Ideal)) (b : Fin 4) (s : Fin 4096) (o : Fin 256) :
    val_main_v3 (F := Ideal) x x3 x4 (ix3 b s o) = proj x x3 x4 b s o := by
  rw [val_main_v3_apply, val_main_v0_apply, val_main_v2_apply, val_main_v1_apply]
  have el : ∀ k : Fin 256, lidx_main_v0 (ix3 b s o) k = ix3 b s k := fun k => funext fun a => by match a with | ⟨0, _⟩ => rfl | ⟨1, _⟩ => rfl | ⟨2, _⟩ => rfl
  have er : ∀ k : Fin 256, ridx_main_v0 (ix3 b s o) k = ix2 o k := fun k => funext fun a => by match a with | ⟨0, _⟩ => rfl | ⟨1, _⟩ => rfl
  have eb : idx_main_v1 (idx_main_v2 (ix3 b s o)) = ix1 o := funext fun a => by match a with | ⟨0, _⟩ => rfl
  simp only [el, er, eb]
  rfl

/-- The reference's proj_k: the shared projection of its input. -/
theorem proj_k (x : (⟨S4x4096x256, .f32⟩ : BufTy).Contents (Elt Ideal)) (x3 : (⟨S256x256, .f32⟩ : BufTy).Contents (Elt Ideal)) (x4 : (⟨S256, .f32⟩ : BufTy).Contents (Elt Ideal)) (b : Fin 4) (s : Fin 4096) (o : Fin 256) :
    val_main_v7 (F := Ideal) x x3 x4 (ix3 b s o) = proj x x3 x4 b s o := by
  rw [val_main_v7_apply, val_main_v4_apply, val_main_v6_apply, val_main_v5_apply]
  have el : ∀ k : Fin 256, lidx_main_v4 (ix3 b s o) k = ix3 b s k := fun k => funext fun a => by match a with | ⟨0, _⟩ => rfl | ⟨1, _⟩ => rfl | ⟨2, _⟩ => rfl
  have er : ∀ k : Fin 256, ridx_main_v4 (ix3 b s o) k = ix2 o k := fun k => funext fun a => by match a with | ⟨0, _⟩ => rfl | ⟨1, _⟩ => rfl
  have eb : idx_main_v5 (idx_main_v6 (ix3 b s o)) = ix1 o := funext fun a => by match a with | ⟨0, _⟩ => rfl
  simp only [el, er, eb]
  rfl

/-- The reference's proj_v: the shared projection of its input. -/
theorem proj_v (x : (⟨S4x4096x256, .f32⟩ : BufTy).Contents (Elt Ideal)) (x3 : (⟨S256x256, .f32⟩ : BufTy).Contents (Elt Ideal)) (x4 : (⟨S256, .f32⟩ : BufTy).Contents (Elt Ideal)) (b : Fin 4) (s : Fin 4096) (o : Fin 256) :
    val_main_v11 (F := Ideal) x x3 x4 (ix3 b s o) = proj x x3 x4 b s o := by
  rw [val_main_v11_apply, val_main_v8_apply, val_main_v10_apply, val_main_v9_apply]
  have el : ∀ k : Fin 256, lidx_main_v8 (ix3 b s o) k = ix3 b s k := fun k => funext fun a => by match a with | ⟨0, _⟩ => rfl | ⟨1, _⟩ => rfl | ⟨2, _⟩ => rfl
  have er : ∀ k : Fin 256, ridx_main_v8 (ix3 b s o) k = ix2 o k := fun k => funext fun a => by match a with | ⟨0, _⟩ => rfl | ⟨1, _⟩ => rfl
  have eb : idx_main_v9 (idx_main_v10 (ix3 b s o)) = ix1 o := funext fun a => by match a with | ⟨0, _⟩ => rfl
  simp only [el, er, eb]
  rfl

variable (x0 x1 x2 : (⟨S4x4096x256, .f32⟩ : BufTy).Contents (Elt Ideal)) (x3 : (⟨S256x256, .f32⟩ : BufTy).Contents (Elt Ideal)) (x4 : (⟨S256, .f32⟩ : BufTy).Contents (Elt Ideal))

/-- A score: the pairing of a projected query row with a projected key row, divided by the square root of 256.0. -/
theorem score_apply (b : Fin 4) (q k : Fin 4096) :
    val_main_v15 (F := Ideal) x0 x1 x3 x4 (ix3 b q k) = scoreDivided (proj x0 x3 x4 b q) (proj x1 x3 x4 b k) := by
  rw [val_main_v15_apply, val_main_v13_apply, val_main_v14_apply, val_main_v12_apply, val_main_cst_apply]
  have el : ∀ d : Fin 256, lidx_main_v13 (ix3 b q k) d = ix3 b q d := fun d => funext fun a => by match a with | ⟨0, _⟩ => rfl | ⟨1, _⟩ => rfl | ⟨2, _⟩ => rfl
  have er : ∀ d : Fin 256, ridx_main_v13 (ix3 b q k) d = ix3 b k d := fun d => funext fun a => by match a with | ⟨0, _⟩ => rfl | ⟨1, _⟩ => rfl | ⟨2, _⟩ => rfl
  simp only [el, er, proj_q, proj_k]
  rfl

/-- Row `q` of batch `b` with coordinate `k` of the reduced last axis put back is `(b, q, k)`. -/
theorem lift_last (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- The maximum of a score row. -/
theorem max_apply (b : Fin 4) (q : Fin 4096) :
    val_main_v18 (F := Ideal) x0 x1 x3 x4 (ix2 b q) = rowMax (fun k => val_main_v15 (F := Ideal) x0 x1 x3 x4 (ix3 b q k)) := by
  rw [val_main_v18_apply, val_main_v17_apply, val_main_cst_1_apply]
  unfold val_main_v16
  rw [Host.reduce_eq_fold_single FloatOps.maximumf _ _ reducesTo_S4x4096x4096_S4x4096_d2 (by decide) h_S_]
  rw [val_main_cst_0_apply]
  unfold rowMax
  have hf : (val_main_v15 (F := Ideal) x0 x1 x3 x4 ∘ (by decide : S4x4096x4096.Reduces [2] S4x4096).lift (ix2 b q))
      = fun k : Fin 4096 => val_main_v15 (F := Ideal) x0 x1 x3 x4 (ix3 b q k) :=
    funext fun k => congrArg (val_main_v15 (F := Ideal) x0 x1 x3 x4) (lift_last _ b q k)
  rw [hf]
  show max (Ideal.ofBits .f32 0xFF800000#32) (Finset.fold max (Ideal.ofBits .f32 0xFF800000#32) _ Finset.univ) = _
  rw [ofBits_negInf]
  exact max_bot_left _

/-- An exponential: of the score less its row's maximum. -/
theorem exp_apply (b : Fin 4) (q k : Fin 4096) :
    val_main_v22 (F := Ideal) x0 x1 x3 x4 (ix3 b q k)
      = Ideal.exp (val_main_v15 (F := Ideal) x0 x1 x3 x4 (ix3 b q k) - val_main_v18 (F := Ideal) x0 x1 x3 x4 (ix2 b q)) := by
  rw [val_main_v22_apply, val_main_v21_apply, val_main_v20_apply, val_main_v19_apply]
  have e : idx_main_v19 (idx_main_v20 (ix3 b q k)) = ix2 b q := funext fun a => by match a with | ⟨0, _⟩ => rfl | ⟨1, _⟩ => rfl
  rw [e]
  rfl

/-- The sum of a row's exponentials. -/
theorem sum_apply (b : Fin 4) (q : Fin 4096) :
    val_main_v23 (F := Ideal) x0 x1 x3 x4 (ix2 b q) = ∑ k : Fin 4096, val_main_v22 (F := Ideal) x0 x1 x3 x4 (ix3 b q k) := by
  rw [val_main_v23_apply, val_main_cst_2_apply]
  have e : ∀ k : Fin 4096, idx_main_v23 (ix2 b q) k = ix3 b q k := fun k => funext fun a => by match a with | ⟨0, _⟩ => rfl | ⟨1, _⟩ => rfl | ⟨2, _⟩ => rfl
  simp only [e]
  show Ideal.ofBits .f32 0x00000000#32 + _ = _
  rw [ofBits_zero, zero_add]

/-- A softmax entry: the exponential divided by its row's sum. -/
theorem soft_apply (b : Fin 4) (q k : Fin 4096) :
    val_main_v26 (F := Ideal) x0 x1 x3 x4 (ix3 b q k)
      = Ideal.div (val_main_v22 (F := Ideal) x0 x1 x3 x4 (ix3 b q k)) (val_main_v23 (F := Ideal) x0 x1 x3 x4 (ix2 b q)) := by
  rw [val_main_v26_apply, val_main_v25_apply, val_main_v24_apply]
  have e : idx_main_v24 (idx_main_v25 (ix3 b q k)) = ix2 b q := funext fun a => by match a with | ⟨0, _⟩ => rfl | ⟨1, _⟩ => rfl
  rw [e]
  rfl

/-- THE REFERENCE'S RESULT is the specification's attention with the scale applied last. -/
theorem result_eq :
    val_main_v27 (F := Ideal) x0 x1 x2 x3 x4 = arr3 (attn scoreDivided x0 x1 x2 x3 x4) := by
  funext i
  obtain ⟨b, q, o, rfl⟩ : ∃ (b : Fin 4) (q : Fin 4096) (o : Fin 256), i = ix3 b q o := ⟨i 0, i 1, i 2, eq_ix3 i⟩
  rw [arr3_ix3, val_main_v27_apply]
  have el : ∀ k : Fin 4096, lidx_main_v27 (ix3 b q o) k = ix3 b q k := fun k => funext fun a => by match a with | ⟨0, _⟩ => rfl | ⟨1, _⟩ => rfl | ⟨2, _⟩ => rfl
  have er : ∀ k : Fin 4096, ridx_main_v27 (ix3 b q o) k = ix3 b k o := fun k => funext fun a => by match a with | ⟨0, _⟩ => rfl | ⟨1, _⟩ => rfl | ⟨2, _⟩ => rfl
  simp only [el, er, proj_v, soft_apply, sum_apply, exp_apply, max_apply, score_apply]
  rfl

end Cert.ReferenceIdeal.RefSpec

end
-- ==== Proof.Bridge.lean ====
/-
  The one algebraic law between the two programs. For REAL query and key rows, scaling every query entry by 1/16
  before pairing it with the key is the pairing divided by 16: the factor moves out of a finite sum of reals.
  (On the extended reals this needs finiteness: it is distributivity.) Projections of real arrays are real, so
  under finite inputs the two ways of scoring agree on every pair of projected rows, and with them the two
  attentions.
-/
import proofs.«173632_j6365141532793_2_alg».proof.Proof.Scale
import proofs.«173632_j6365141532793_2_alg».proof.Proof.Spec

noncomputable section

namespace Cert.Attn

open Idealize.ShloMosaic Idealize.ShloMosaic.ValueIdx

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- On real rows the two scores agree: Σ (q·(1/16))·k = (Σ q·k)/16. -/
theorem score_eq (q k : Fin 256 → ℝ) :
    scoreScaledQuery (fun d => (q d : EReal)) (fun d => (k d : EReal))
      = scoreDivided (fun d => (q d : EReal)) (fun d => (k d : EReal)) := by
  unfold scoreScaledQuery scoreDivided
  rw [ofBits_sixteenth, sqrt_ofBits_256, Ideal.div_coe (by norm_num : (16 : ℝ) ≠ 0)]
  simp only [← EReal.coe_mul, ← coe_sum]
  refine congrArg _ ?_
  rw [Finset.sum_mul]
  exact Finset.sum_congr rfl fun d _ => by ring

/-- The projection of real arrays is real. -/
theorem proj_coe (rx : (⟨3, ![4, 4096, 256]⟩ : Shape).Idx → ℝ) (rw : (⟨2, ![256, 256]⟩ : Shape).Idx → ℝ)
    (rb : (⟨1, ![256]⟩ : Shape).Idx → ℝ) (b : Fin 4) (s : Fin 4096) :
    proj (fun i => (rx i : EReal)) (fun i => (rw i : EReal)) (fun i => (rb i : EReal)) b s
      = fun o => (((∑ d : Fin 256, rx (ix3 b s d) * rw (ix2 o d)) + rb (ix1 o) : ℝ) : EReal) := by
  funext o
  unfold proj
  simp only [← EReal.coe_mul, ← coe_sum, ← EReal.coe_add]

/-- Under finite inputs the attention scored with the scale folded into the query IS the attention scored
    with the scale applied last. -/
theorem attn_scaled_eq_divided (x0 x1 x2 : Arr3) (w : Arr2) (bq : Arr1)
    (h0 : ∃ r : (⟨3, ![4, 4096, 256]⟩ : Shape).Idx → ℝ, x0 = fun i => (r i : EReal))
    (h1 : ∃ r : (⟨3, ![4, 4096, 256]⟩ : Shape).Idx → ℝ, x1 = fun i => (r i : EReal))
    (hw : ∃ r : (⟨2, ![256, 256]⟩ : Shape).Idx → ℝ, w = fun i => (r i : EReal))
    (hb : ∃ r : (⟨1, ![256]⟩ : Shape).Idx → ℝ, bq = fun i => (r i : EReal)) :
    attn scoreScaledQuery x0 x1 x2 w bq = attn scoreDivided x0 x1 x2 w bq := by
  obtain ⟨r0, rfl⟩ := h0
  obtain ⟨r1, rfl⟩ := h1
  obtain ⟨rw, rfl⟩ := hw
  obtain ⟨rb, rfl⟩ := hb
  funext b s o
  unfold attn
  refine congrArg (fun sc => softRow sc _) (funext fun k => ?_)
  rw [proj_coe r0 rw rb b s, proj_coe r1 rw rb b k]
  exact score_eq _ _

end Cert.Attn

end
-- ==== Proof.Finite.lean ====
/-
  Finiteness. The precondition says of each of the five argument arrays that every entry's absolute value is
  below +∞, all five conjoined. An extended real whose absolute value is below +∞ is a real number, so each
  argument array is the image of an array of reals.
-/
import proofs.«173632_j6365141532793_2_alg».proof.Pre_finite_inputs
import proofs.«173632_j6365141532793_2_alg».proof.Proof.Scale
import Idealize.ShloMosaic.Lib.ReduceAll
import Idealize.ShloMosaic.Lib.ValueIdx
import Idealize.ShloMosaic.PureOps.Ideal.Laws

noncomputable section

namespace Cert.Attn

open Idealize.ShloMosaic

/-- An extended real whose absolute value compares below the word of +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exfalso; simp at hlt
  | coe r => exact ⟨r, rfl⟩
  | top => exfalso; simp at hlt

/-- An array all of whose entries pass that comparison is an array of reals. -/
theorem reals_of_all {s : Shape} (x : s.Idx → EReal)
    (h : ∀ i, Ideal.cmp .olt (max (x i) (-(x i))) (Ideal.ofBits .f32 0x7F800000#32) = 1#1) :
    ∃ r : s.Idx → ℝ, x = fun i => (r i : EReal) := by
  choose r hr using fun i => real_of_abs_lt (x i) (h i)
  exact ⟨r, funext hr⟩

end Cert.Attn

namespace Cert.Pre_finite_inputs

open Idealize.ShloMosaic Cert.Attn

variable [Facts]

instance : Subsingleton S_.Idx := ⟨fun a b => funext fun d => d.elim0⟩

/-- Under the precondition the five argument arrays are arrays of reals. -/
theorem reals_of_pre (a0 a1 a2 : FVec Ideal S4x4096x256 .f32) (a3 : FVec Ideal S256x256 .f32) (a4 : FVec Ideal S256 .f32)
    (h : fn (F := Ideal) a0 a1 a2 a3 a4 = fun _ => 1#1) :
    (∃ r : S4x4096x256.Idx → ℝ, a0 = fun i => (r i : EReal))
    ∧ (∃ r : S4x4096x256.Idx → ℝ, a1 = fun i => (r i : EReal))
    ∧ (∃ r : S4x4096x256.Idx → ℝ, a2 = fun i => (r i : EReal))
    ∧ (∃ r : S256x256.Idx → ℝ, a3 = fun i => (r i : EReal))
    ∧ (∃ r : S256.Idx → ℝ, a4 = fun i => (r i : EReal)) := by
  have h0 := congrFun h ValueIdx.ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨reals_of_all a0 fun i => ?_, reals_of_all a1 fun i => ?_, reals_of_all a2 fun i => ?_,
    reals_of_all a3 fun i => ?_, reals_of_all a4 fun i => ?_⟩
  · exact Host.reduce_andi_all _ _ _ _ _ h3 i
  · exact Host.reduce_andi_all _ _ _ _ _ h7 i
  · exact Host.reduce_andi_all _ _ _ _ _ h12 i
  · exact Host.reduce_andi_all _ _ _ _ _ h17 i
  · exact Host.reduce_andi_all _ _ _ _ _ h22 i

end Cert.Pre_finite_inputs

end
-- ==== Proof.lean ====
/-
  Single-head softmax attention with one shared linear projection: the fused kernel against the plain reference,
  on the extended reals.

  Both programs project queries, keys and values by the same weight and bias, pair every projected query row with
  the 4096 projected key rows of its batch, take the softmax of each score row and pair it with the projected
  values. They differ in where the scale 1/√256 sits: the kernel multiplies every projected query entry by the
  word of 0.0625 BEFORE pairing, the reference divides the finished pairing by the square root of the word of
  256.0. Since √256 = 16 and 0.0625 = 1/16 exactly, the two scores agree wherever the factor may be moved out of
  the sum over the 256 features — on real numbers. The precondition makes every input entry real, hence every
  projected entry real, and the law applies (Bridge).

  The kernel walks a 4 × 16 grid (batch, query tile of 256 rows). At a batch's first tile it projects the batch's
  keys and values into two scratch buffers that it then only reads for the other fifteen tiles; that the buffers
  hold the right batch's projections at every point is an induction over the grid points (Carry). What each point
  writes back is block (batch, tile) of one whole-array function, and the 64 blocks tile the result.

  The frames of the two kernel programs are the generated ones; the reference's frame is its generated run with
  the result dropped; the idealization rewrote nothing.
-/
import proofs.«173632_j6365141532793_2_alg».proof.Defs
import proofs.«173632_j6365141532793_2_alg».proof.Proof.Gen.Kernel
import proofs.«173632_j6365141532793_2_alg».proof.Proof.Gen.Kernel.Skeleton
import proofs.«173632_j6365141532793_2_alg».proof.Proof.Gen.Kernel.Launch
import proofs.«173632_j6365141532793_2_alg».proof.Proof.Gen.Kernel.Points
import proofs.«173632_j6365141532793_2_alg».proof.Proof.Gen.Kernel.Frame
import proofs.«173632_j6365141532793_2_alg».proof.Proof.Gen.KernelIdeal
import proofs.«173632_j6365141532793_2_alg».proof.Proof.Gen.KernelIdeal.Skeleton
import proofs.«173632_j6365141532793_2_alg».proof.Proof.Gen.KernelIdeal.Launch
import proofs.«173632_j6365141532793_2_alg».proof.Proof.Gen.KernelIdeal.Points
import proofs.«173632_j6365141532793_2_alg».proof.Proof.Gen.KernelIdeal.Frame
import proofs.«173632_j6365141532793_2_alg».proof.Proof.Gen.ReferenceIdeal
import proofs.«173632_j6365141532793_2_alg».proof.Proof.Gen.Pre_finite_inputs
import proofs.«173632_j6365141532793_2_alg».proof.Proof.Gen.KernelIdeal.Value
import proofs.«173632_j6365141532793_2_alg».proof.Proof.Gen.ReferenceIdeal.Run
import proofs.«173632_j6365141532793_2_alg».proof.Proof.Gen.ReferenceIdeal.Read
import proofs.«173632_j6365141532793_2_alg».proof.Proof.Carry
import proofs.«173632_j6365141532793_2_alg».proof.Proof.RefSpec
import proofs.«173632_j6365141532793_2_alg».proof.Proof.Bridge
import proofs.«173632_j6365141532793_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the same result array: the kernel's is the
    attention with the scale folded into the query, the reference's the attention with the scale applied last, and
    on real inputs these are one function. -/
theorem algebraic : Cert.algebraic_KernelIdeal_ReferenceIdeal := by
  intro m ρ m' ρ' hpre hagree
  refine ⟨fun c => Cert.KernelIdeal.Carry.result m c, Cert.KernelIdeal.Carry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefSpec.result_eq,
    (hagree c).1, (hagree c).2.1, (hagree c).2.2.1, (hagree c).2.2.2.1, (hagree c).2.2.2.2]
  obtain ⟨h0, h1, -, h3, h4⟩ := Cert.Pre_finite_inputs.reals_of_pre _ _ _ _ _ (hpre c)
  exact congrArg Cert.Attn.arr3 (Cert.Attn.attn_scaled_eq_divided _ _ _ _ _ h0 h1 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
